-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S500x7 : Shape := ⟨2, ![500, 7]⟩
abbrev S7 : Shape := ⟨1, ![7]⟩
abbrev S3300000 : Shape := ⟨1, ![3300000]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x7 : S_.BroadcastsInDim S500x7 (![] : Fin 0 → Fin S500x7.rank)
  reducesTo_S500x7_S_d0_1 : S500x7.ReducesTo [0, 1] S_
  bcast_S_S7 : S_.BroadcastsInDim S7 (![] : Fin 0 → Fin S7.rank)
  reducesTo_S7_S_d0 : S7.ReducesTo [0] S_

variable [Facts]

def fn {F : FTy → Type} [FloatOps F] (main_arg0 : FVec F S100000x500 .f32) (main_arg1 : FVec F S500x7 .f32) (main_arg2 : FVec F S7 .f32) (main_arg3 : IVec S3300000 32) (main_arg4 : IVec S3300000 32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x7 .f32 := Host.absf main_arg1
  let main_cst_0 : FVec F S_ .f32 := constant S_ .f32 0x7F800000#32
  let main_v5 : FVec F S500x7 .f32 := broadcastInDim S500x7 ![] bcast_S_S500x7 main_cst_0
  let main_v6 : IVec S500x7 1 := cmpf .olt main_v4 main_v5
  let main_c_1 : IVec S_ 1 := constantI S_ 1 1#1
  let main_v7 : IVec S_ 1 := (fun x v => Host.reduce IntOp.andi x v reducesTo_S500x7_S_d0_1 h_S_) main_v6 main_c_1
  let main_v8 : IVec S_ 1 := andi main_v3 main_v7
  let main_v9 : FVec F S7 .f32 := Host.absf main_arg2
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  main_v13
-- ==== Kernel.lean ====
abbrev S100000x500 : Shape := ⟨2, ![100000, 500]⟩
abbrev S500x7 : Shape := ⟨2, ![500, 7]⟩
abbrev S7 : Shape := ⟨1, ![7]⟩
abbrev S3300000 : Shape := ⟨1, ![3300000]⟩
abbrev S_ : Shape := ⟨0, ![]⟩
abbrev S100000 : Shape := ⟨1, ![100000]⟩
abbrev S3300000x1 : Shape := ⟨2, ![3300000, 1]⟩
abbrev S100000x1 : Shape := ⟨2, ![100000, 1]⟩
abbrev S100000x7 : Shape := ⟨2, ![100000, 7]⟩
abbrev S5000x500 : Shape := ⟨2, ![5000, 500]⟩
abbrev S5000x1 : Shape := ⟨2, ![5000, 1]⟩
abbrev S5000x7 : Shape := ⟨2, ![5000, 7]⟩
abbrev S3300000x7 : Shape := ⟨2, ![3300000, 7]⟩
abbrev S1x7 : Shape := ⟨2, ![1, 7]⟩

abbrev nBuf : Space → Nat
  | .hbm => 47
  | .vmem => 14
  | .smem => 0
  | _ => 0

abbrev bufTy : (tb : Table) → Fin (tcTables nBuf tb) → BufTy
  | .hbm, ⟨0, _⟩ => ⟨S100000x500, .f32⟩
  | .hbm, ⟨1, _⟩ => ⟨S500x7, .f32⟩
  | .hbm, ⟨2, _⟩ => ⟨S7, .f32⟩
  | .hbm, ⟨3, _⟩ => ⟨S3300000, .i32⟩
  | .hbm, ⟨4, _⟩ => ⟨S3300000, .i32⟩
  | .hbm, ⟨5, _⟩ => ⟨S_, .f32⟩
  | .hbm, ⟨6, _⟩ => ⟨S3300000, .f32⟩
  | .hbm, ⟨7, _⟩ => ⟨S_, .f32⟩
  | .hbm, ⟨8, _⟩ => ⟨S100000, .f32⟩
  | .hbm, ⟨9, _⟩ => ⟨S3300000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3300000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x7, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000x7, .f32⟩
  | .hbm, ⟨40, _⟩ => ⟨S_, .f32⟩
  | .hbm, ⟨41, _⟩ => ⟨S100000x7, .f32⟩
  | .hbm, ⟨42, _⟩ => ⟨S3300000x1, .i32⟩
  | .hbm, ⟨43, _⟩ => ⟨S100000x7, .f32⟩
  | .hbm, ⟨44, _⟩ => ⟨S100000x1, .f32⟩
  | .hbm, ⟨45, _⟩ => ⟨S1x7, .f32⟩
  | .hbm, ⟨46, _⟩ => ⟨S100000x7, .f32⟩
  | .local _ .vmem, ⟨0, _⟩ => ⟨S5000x500, .f32⟩
  | .local _ .vmem, ⟨1, _⟩ => ⟨S5000x500, .f32⟩
  | .local _ .vmem, ⟨2, _⟩ => ⟨S500x7, .f32⟩
  | .local _ .vmem, ⟨3, _⟩ => ⟨S5000x1, .f32⟩
  | .local _ .vmem, ⟨4, _⟩ => ⟨S5000x1, .f32⟩
  | .local _ .vmem, ⟨5, _⟩ => ⟨S5000x7, .f32⟩
  | .local _ .vmem, ⟨6, _⟩ => ⟨S5000x7, .f32⟩
  | .local _ .vmem, ⟨7, _⟩ => ⟨S5000x7, .f32⟩
  | .local _ .vmem, ⟨8, _⟩ => ⟨S5000x7, .f32⟩
  | .local _ .vmem, ⟨9, _⟩ => ⟨S5000x1, .f32⟩
  | .local _ .vmem, ⟨10, _⟩ => ⟨S5000x1, .f32⟩
  | .local _ .vmem, ⟨11, _⟩ => ⟨S1x7, .f32⟩
  | .local _ .vmem, ⟨12, _⟩ => ⟨S5000x7, .f32⟩
  | .local _ .vmem, ⟨13, _⟩ => ⟨S5000x7, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x500_S5000x500_0_0 : ∀ a, (![0, 0] : Fin 2 → Nat) a + S5000x500.size a ≤ S5000x500.size a
  h_S5000x500 : 0 < S5000x500.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x500 : S5000x1.Broadcasts S5000x500
  bitsLt_bf16_f32 : FTy.bits .bf16 < FTy.bits .f32
  inb_S500x7_S500x7_0_0 : ∀ a, (![0, 0] : Fin 2 → Nat) a + S500x7.size a ≤ S500x7.size a
  h_S500x7 : 0 < S500x7.numel
  inb_S5000x7_S5000x7_0_0 : ∀ a, (![0, 0] : Fin 2 → Nat) a + S5000x7.size a ≤ S5000x7.size a
  h_S5000x7 : 0 < S5000x7.numel
  bcast_S_S100000x7 : S_.BroadcastsInDim S100000x7 (![] : Fin 0 → Fin S100000x7.rank)
  shapeCasts_S7_S1x7 : S7.ShapeCasts S1x7
  shapeCasts_S5000x7_S5000x7 : S5000x7.ShapeCasts S5000x7
  broadcasts_S5000x1_S5000x7 : S5000x1.Broadcasts S5000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  scatter_S100000_S3300000x1_S3300000_n_0_0_1_wf : ScatterDims.WF S100000 S3300000x1 S3300000 [] [0] [0] 1
  dot_S5000x500_S500x7_S5000x7_1_0_0_1_n_n_wf : DotDims.WF S5000x500 S500x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S100000x500.size a
  hwx0_0 : ∀ i : grid0.Coords, EltTy.bits .f32 = 32 ∨ (Rect.block (s := S100000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x7.size a ≤ S500x7.size a
  hwx0_1 : ∀ i : grid0.Coords, EltTy.bits .f32 = 32 ∨ (Rect.block (s := S500x7) S500x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x7.size a ≤ S100000x7.size a
  hwx0_3 : ∀ i : grid0.Coords, EltTy.bits .f32 = 32 ∨ (Rect.block (s := S100000x7) S5000x7.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x7.size a ≤ S100000x7.size a
  hwx1_0 : ∀ i : grid1.Coords, EltTy.bits .f32 = 32 ∨ (Rect.block (s := S100000x7) S5000x7.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x7.size a ≤ S1x7.size a
  hwx1_2 : ∀ i : grid1.Coords, EltTy.bits .f32 = 32 ∨ (Rect.block (s := S1x7) S1x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x7.size a ≤ S100000x7.size a
  hwx1_3 : ∀ i : grid1.Coords, EltTy.bits .f32 = 32 ∨ (Rect.block (s := S100000x7) S5000x7.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x500_S500x7_S5000x7_1_0_0_1_n_n : DotDims S5000x500 S500x7 S5000x7 where
  lhsContracting := [1]
  rhsContracting := [0]
  lhsNonContracting := [0]
  rhsNonContracting := [1]
  lhsBatch := []
  rhsBatch := []
  wf := dot_S5000x500_S500x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S500x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x7.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x500 : Shape := ⟨2, ![100000, 500]⟩
abbrev S500x7 : Shape := ⟨2, ![500, 7]⟩
abbrev S7 : Shape := ⟨1, ![7]⟩
abbrev S3300000 : Shape := ⟨1, ![3300000]⟩
abbrev S_ : Shape := ⟨0, ![]⟩
abbrev S100000 : Shape := ⟨1, ![100000]⟩
abbrev S3300000x1 : Shape := ⟨2, ![3300000, 1]⟩
abbrev S100000x1 : Shape := ⟨2, ![100000, 1]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 52
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S500x7, .f32⟩
  | .hbm, ⟨2, _⟩ => ⟨S7, .f32⟩
  | .hbm, ⟨3, _⟩ => ⟨S3300000, .i32⟩
  | .hbm, ⟨4, _⟩ => ⟨S3300000, .i32⟩
  | .hbm, ⟨5, _⟩ => ⟨S_, .f32⟩
  | .hbm, ⟨6, _⟩ => ⟨S3300000, .f32⟩
  | .hbm, ⟨7, _⟩ => ⟨S_, .f32⟩
  | .hbm, ⟨8, _⟩ => ⟨S100000, .f32⟩
  | .hbm, ⟨9, _⟩ => ⟨S3300000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3300000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x500, .f32⟩
  | .hbm, ⟨31, _⟩ => ⟨S100000x500, .f32⟩
  | .hbm, ⟨32, _⟩ => ⟨S100000x7, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000x7, .f32⟩
  | .hbm, ⟨42, _⟩ => ⟨S_, .f32⟩
  | .hbm, ⟨43, _⟩ => ⟨S100000x7, .f32⟩
  | .hbm, ⟨44, _⟩ => ⟨S3300000x1, .i32⟩
  | .hbm, ⟨45, _⟩ => ⟨S100000x7, .f32⟩
  | .hbm, ⟨46, _⟩ => ⟨S100000x1, .f32⟩
  | .hbm, ⟨47, _⟩ => ⟨S100000x7, .f32⟩
  | .hbm, ⟨48, _⟩ => ⟨S100000x7, .f32⟩
  | .hbm, ⟨49, _⟩ => ⟨S1x7, .f32⟩
  | .hbm, ⟨50, _⟩ => ⟨S100000x7, .f32⟩
  | .hbm, ⟨51, _⟩ => ⟨S100000x7, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S100000x1_S100000x500_0_1 : S100000x1.BroadcastsInDim S100000x500 (![0, 1] : Fin 2 → Fin S100000x500.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  dot_S100000x500_S500x7_S100000x7_1_0_0_1_n_n_wf : DotDims.WF S100000x500 S500x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x500_S500x7_S100000x7_1_0_0_1_n_n : DotDims S100000x500 S500x7 S100000x7 where
  lhsContracting := [1]
  rhsContracting := [0]
  lhsNonContracting := [0]
  rhsNonContracting := [1]
  lhsBatch := []
  rhsBatch := []
  wf := dot_S100000x500_S500x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.NamedRun.lean ====
/-
  The idealized kernel program's run with its result array named.

  The program is eight segments: five stretches of host operations (the two degree histograms, their clipping and
  the power -1/2), the first tiled region (the row-scaled product), one more stretch (the gather along the source
  of every edge, the scatter-add onto its destination, two reshapes) and the second tiled region (the row scaling
  and the bias).  The generated frame folds the device's buffer contents through these segments, `Gen.W0` … `Gen.W8`,
  and reads the five argument arrays back at the end.  Here the same launch is read at one more buffer: the result
  array ends at what the fold's last stage `Gen.W8` holds for it.  The later modules compute that stage.
-/
import proofs.«173169_j90331752169729_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the last
    stage of the fold at its buffer, and the five argument arrays are as launched. -/
theorem run : θ_run defs (onTc (τ := τ) (main (F := F))) ⟨m, fun _ => 0, ρ⟩ (fun r => ∀ c : Dev nD,
      r.2.mem ((c.tc : Thread nD τ).loc main_v27) = W8 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v27 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Named

end
-- ==== Proof.HostStages.lean ====
/-
  The host operations between the tiled regions, read off the fold of the device's buffer contents.

  Around its two tiled regions the program computes, with plain array operations:
    * for an index array `idx` of 3300000 edge endpoints, the factor `degreeScale idx` of every node: the histogram
      of `idx` over the 100000 nodes (a scatter-add of ones into zeros), clipped below at 1, to the power -1/2;
    * from the first region's output `feat`, `aggregate feat src dst`: row `src[e]` of `feat` gathered for every edge `e`
      (a negative index wrapped once by 100000) and scatter-added onto row `dst[e]` of a zero matrix;
    * reshapes of a vector into a column and of the bias vector into a row.
  The generated frame names the contents of every buffer at each segment boundary (`Gen.W0` … `Gen.W8`).  This module
  evaluates those names at the buffers the regions read and write, for any float values: no operation is opened,
  each stage is only identified.
-/
import proofs.«173169_j90331752169729_2_alg».proof.Proof.Gen.KernelIdeal.Frame
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo

variable {F : FTy → Type} [FloatOps F]

/-- The degree factor of every node: the histogram of `idx`, clipped below at one, to the power -1/2. -/
def degreeScale (idx : (⟨S3300000, .i32⟩ : BufTy).Contents (Elt F)) : (⟨S100000, .f32⟩ : BufTy).Contents (Elt F) :=
  Host.powf (F := F)
    (maximumf (broadcastInDim S100000 ![] bcast_S_S100000 (id (constant (F := F) S_ .f32 0x3F800000#32)))
      (Host.scatterAdd (F := F) scatter_S100000_S3300000x1_S3300000_n_0_0_1
        (broadcastInDim S100000 ![] bcast_S_S100000 (constant (F := F) S_ .f32 0x00000000#32))
        (broadcastInDim S3300000x1 ![0] bcast_S3300000_S3300000x1_0 idx)
        (broadcastInDim S3300000 ![] bcast_S_S3300000 (constant (F := F) S_ .f32 0x3F800000#32))))
    (broadcastInDim S100000 ![] bcast_S_S100000 (constant (F := F) S_ .f32 0xBF000000#32))

/-- Row `src[e]` of `feat` for every edge `e`, summed onto row `dst[e]` of a zero matrix. -/
def aggregate (feat : (⟨S100000x7, .f32⟩ : BufTy).Contents (Elt F)) (src dst : (⟨S3300000, .i32⟩ : BufTy).Contents (Elt F)) :
    (⟨S100000x7, .f32⟩ : BufTy).Contents (Elt F) :=
  Host.scatterAdd (F := F) scatter_S100000x7_S3300000x1_S3300000x7_1_0_0_1
    (broadcastInDim S100000x7 ![] bcast_S_S100000x7 (constant (F := F) S_ .f32 0x00000000#32))
    (broadcastInDim S3300000x1 ![0] bcast_S3300000_S3300000x1_0 dst)
    (Host.gather gather_S100000x7_S3300000x1_S3300000x7_1_0_n_n_0_1_17 feat
      (broadcastInDim S3300000x1 ![0] bcast_S3300000_S3300000x1_0
        (select (cmpi .slt src (broadcastInDim S3300000 ![] bcast_S_S3300000 (constantI S_ 32 0#32)))
          (addi src (broadcastInDim S3300000 ![] bcast_S_S3300000 (constantI S_ 32 100000#32))) src)))

variable (m : (ℓ : Loc nD τ sig) → Buf (Elt F) ℓ) (ρ : Dev nD → PrngReg)

/-! ## At the first region's entry -/

/-- The feature array is as launched. -/
theorem entry0_features (c : Dev nD) : W5 m ρ c (Proc.devRef .tc main_arg0) = m ((c : Thread nD τ).loc main_arg0) := by
  show after hostOps0_4 (after hostOps0_3 (after hostOps0_2 (after hostOps0_1 (after hostOps0 (W0 m ρ c))))) (Proc.devRef .tc main_arg0) = _
  simp only [hostOps0, hostOps0_1, hostOps0_2, hostOps0_3, hostOps0_4]
  after_results

/-- The weight array is as launched. -/
theorem entry0_weights (c : Dev nD) : W5 m ρ c (Proc.devRef .tc main_arg1) = m ((c : Thread nD τ).loc main_arg1) := by
  show after hostOps0_4 (after hostOps0_3 (after hostOps0_2 (after hostOps0_1 (after hostOps0 (W0 m ρ c))))) (Proc.devRef .tc main_arg1) = _
  simp only [hostOps0, hostOps0_1, hostOps0_2, hostOps0_3, hostOps0_4]
  after_results

/-- The bias vector, the sources and the destinations are as launched. -/
theorem entry0_bias (c : Dev nD) : W5 m ρ c (Proc.devRef .tc main_arg2) = m ((c : Thread nD τ).loc main_arg2) := by
  show after hostOps0_4 (after hostOps0_3 (after hostOps0_2 (after hostOps0_1 (after hostOps0 (W0 m ρ c))))) (Proc.devRef .tc main_arg2) = _
  simp only [hostOps0, hostOps0_1, hostOps0_2, hostOps0_3, hostOps0_4]
  after_results
theorem entry0_sources (c : Dev nD) : W5 m ρ c (Proc.devRef .tc main_arg3) = m ((c : Thread nD τ).loc main_arg3) := by
  show after hostOps0_4 (after hostOps0_3 (after hostOps0_2 (after hostOps0_1 (after hostOps0 (W0 m ρ c))))) (Proc.devRef .tc main_arg3) = _
  simp only [hostOps0, hostOps0_1, hostOps0_2, hostOps0_3, hostOps0_4]
  after_results
theorem entry0_destinations (c : Dev nD) : W5 m ρ c (Proc.devRef .tc main_arg4) = m ((c : Thread nD τ).loc main_arg4) := by
  show after hostOps0_4 (after hostOps0_3 (after hostOps0_2 (after hostOps0_1 (after hostOps0 (W0 m ρ c))))) (Proc.devRef .tc main_arg4) = _
  simp only [hostOps0, hostOps0_1, hostOps0_2, hostOps0_3, hostOps0_4]
  after_results

/-- The scaling column the first region reads: the out-degree factors, as a column. -/
theorem entry0_column (c : Dev nD) : W5 m ρ c (Proc.devRef .tc main_v13)
    = shapeCast S100000x1 (degreeScale (m ((c : Thread nD τ).loc main_arg3))) shapeCasts_S100000_S100000x1 := by
  show after hostOps0_4 (after hostOps0_3 (after hostOps0_2 (after hostOps0_1 (after hostOps0 (W0 m ρ c))))) (Proc.devRef .tc main_v13) = _
  simp only [hostOps0, hostOps0_1, hostOps0_2, hostOps0_3, hostOps0_4]
  after_results
  rfl

/-- The in-degree factors, computed before the first region and read after it. -/
theorem entry0_inScale (c : Dev nD) : W5 m ρ c (Proc.devRef .tc main_v12) = degreeScale (m ((c : Thread nD τ).loc main_arg4)) := by
  show after hostOps0_4 (after hostOps0_3 (after hostOps0_2 (after hostOps0_1 (after hostOps0 (W0 m ρ c))))) (Proc.devRef .tc main_v12) = _
  simp only [hostOps0, hostOps0_1, hostOps0_2, hostOps0_3, hostOps0_4]
  after_results
  rfl

/-! ## At the first region's exit -/

/-- The first region's output array holds what its write-backs leave. -/
theorem exit0_output (c : Dev nD) : W6 m ρ c (Proc.devRef .tc main_v14) = (dat0 (V5 m ρ) c).arrAt 3 cfg0.N :=
  W6_arr m ρ c 3

theorem exit0_inScale (c : Dev nD) : W6 m ρ c (Proc.devRef .tc main_v12) = degreeScale (m ((c : Thread nD τ).loc main_arg4)) :=
  (W6_of_ne m ρ c main_v12 (by decide)).trans (entry0_inScale m ρ c)
theorem exit0_bias (c : Dev nD) : W6 m ρ c (Proc.devRef .tc main_arg2) = m ((c : Thread nD τ).loc main_arg2) :=
  (W6_of_ne m ρ c main_arg2 (by decide)).trans (entry0_bias m ρ c)
theorem exit0_sources (c : Dev nD) : W6 m ρ c (Proc.devRef .tc main_arg3) = m ((c : Thread nD τ).loc main_arg3) :=
  (W6_of_ne m ρ c main_arg3 (by decide)).trans (entry0_sources m ρ c)
theorem exit0_destinations (c : Dev nD) : W6 m ρ c (Proc.devRef .tc main_arg4) = m ((c : Thread nD τ).loc main_arg4) :=
  (W6_of_ne m ρ c main_arg4 (by decide)).trans (entry0_destinations m ρ c)

/-! ## At the second region's entry -/

/-- The aggregated matrix the second region reads. -/
theorem entry1_aggregated (c : Dev nD) : W7 m ρ c (Proc.devRef .tc main_v24)
    = aggregate (W6 m ρ c (Proc.devRef .tc main_v14)) (W6 m ρ c (Proc.devRef .tc main_arg3)) (W6 m ρ c (Proc.devRef .tc main_arg4)) := by
  show after hostOps1 (W6 m ρ c) (Proc.devRef .tc main_v24) = _
  simp only [hostOps1]
  after_results
  rfl

/-- The scaling column the second region reads: the in-degree factors, as a column. -/
theorem entry1_column (c : Dev nD) : W7 m ρ c (Proc.devRef .tc main_v25)
    = shapeCast S100000x1 (W6 m ρ c (Proc.devRef .tc main_v12)) shapeCasts_S100000_S100000x1 := by
  show after hostOps1 (W6 m ρ c) (Proc.devRef .tc main_v25) = _
  simp only [hostOps1]
  after_results
  rfl

/-- The bias row the second region reads: the bias vector, as a row. -/
theorem entry1_bias (c : Dev nD) : W7 m ρ c (Proc.devRef .tc main_v26)
    = shapeCast S1x7 (W6 m ρ c (Proc.devRef .tc main_arg2)) shapeCasts_S7_S1x7 := by
  show after hostOps1 (W6 m ρ c) (Proc.devRef .tc main_v26) = _
  simp only [hostOps1]
  after_results
  rfl

/-! ## At the second region's exit -/

/-- The result array holds what the second region's write-backs leave. -/
theorem exit1_output (c : Dev nD) : W8 m ρ c (Proc.devRef .tc main_v27) = (dat1 (V7 m ρ) c).arrAt 3 cfg1.N :=
  W8_arr m ρ c 3

end Cert.KernelIdeal.Stages

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.BlockValues.lean ====
/-
  What the two kernel bodies store, read at an entry, on the extended reals.

  Each body loads its blocks whole, computes one matrix and stores it whole.  The first body scales every row of a
  5000 × 500 block by that row's entry of a 5000 × 1 column and multiplies the result into a 500 × 7 matrix; the
  changes of float format on the way into the product are the identity here, and the product is accumulated into
  the zero matrix, so entry (p, q) is Σ_k (x[p, k] · s[p]) · w[k, q].  The second body scales every row of a
  5000 × 7 block by its entry of a column and adds a 1 × 7 row to every row: entry (p, q) is a[p, q] · s[p] + b[q].
-/
import proofs.«173169_j90331752169729_2_alg».proof.Proof.Gen.KernelIdeal.Skeleton
import proofs.«173169_j90331752169729_2_alg».proof.Proof.LibPlainMatmul
import proofs.«173169_j90331752169729_2_alg».proof.Proof.LibKeepdims
import Idealize.ShloMosaic.Lib.ValueLayout
import Idealize.ShloMosaic.Lib.Pipeline.Value

noncomputable section

open scoped BigOperators

namespace Cert.KernelIdeal.Blocks

open Cert.KernelIdeal Cert.KernelIdeal.Gen Idealize.ShloMosaic Idealize.ShloMosaic.ValueIdx

/-- Entry (p, q) of the first body's product: the row p of the block, scaled by the row's factor, against column q of
    the matrix. -/
theorem scaledProduct_apply (x : Vec Ideal S5000x500 .f32) (s : Vec Ideal S5000x1 .f32) (w : Vec Ideal S500x7 .f32)
    (p : Fin 5000) (q : Fin 7) :
    k0_pay1 x s w (ix2 p q) = ∑ k : Fin 500, (x (ix2 p k) * s (ix2 p (0 : Fin 1))) * w (ix2 k q) := by
  unfold k0_pay1
  refine (matmul_plain_zero_apply dot_S5000x500_S500x7_S5000x7_1_0_0_1_n_n rfl none _ _ p q).trans ?_
  refine Finset.sum_congr rfl fun k _ => ?_
  rw [truncf_apply, truncf_apply, mulf_apply, Cert.LibKeepdims.broadcastTo_a1_ac_apply, shapeCast_self]

/-- Entry (p, q) of the second body's result: the block's entry scaled by the row's factor, plus the row vector's
    entry of column q. -/
theorem scaleBias_apply (a : Vec Ideal S5000x7 .f32) (s : Vec Ideal S5000x1 .f32) (b : Vec Ideal S1x7 .f32)
    (p : Fin 5000) (q : Fin 7) :
    k1_pay1 a s b (ix2 p q) = a (ix2 p q) * s (ix2 p (0 : Fin 1)) + b (ix2 (0 : Fin 1) q) := by
  unfold k1_pay1
  rw [addf_apply, mulf_apply, Cert.LibKeepdims.broadcastTo_a1_ac_apply, broadcastTo_1b_ab_apply,
    shapeCast_self, shapeCast_self, shapeCast_self]

end Cert.KernelIdeal.Blocks

end
-- ==== Proof.Region0Array.lean ====
/-
  The first tiled region, read as one array.

  The region runs its body at 20 grid points.  At point t the body sees rows 5000·t … 5000·t + 4999 of the feature
  matrix and of the scaling column, and the whole 500 × 7 weight matrix, and writes rows 5000·t … 5000·t + 4999 of
  the output.  So what point t writes back is block t of ONE function of the three arrays as the region finds them,

      scaledProduct h w s (r, e) = Σ_k (h[r, k] · s[r, 0]) · w[k, e],

  and since the 20 blocks tile the 100000 rows, the output array ends holding that function.  Everything here is
  stated for arbitrary contents `V` of the device's buffers at the region's entry.
-/
import proofs.«173169_j90331752169729_2_alg».proof.Proof.Gen.KernelIdeal.Frame
import proofs.«173169_j90331752169729_2_alg».proof.Proof.BlockValues
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

/-- Every row of `h` scaled by the row's entry of the column `s`, then multiplied into `w`. -/
def scaledProduct (h : FVec Ideal S100000x500 .f32) (w : FVec Ideal S500x7 .f32) (s : FVec Ideal S100000x1 .f32) :
    FVec Ideal S100000x7 .f32 := fun i =>
  ∑ k : Fin 500, (h (ix2 (⟨(i 0).val, idx2_lt0 i⟩ : Fin 100000) k) * s (ix2 (⟨(i 0).val, idx2_lt0 i⟩ : Fin 100000) (0 : Fin 1)))
    * w (ix2 k (⟨(i 1).val, idx2_lt1 i⟩ : Fin 7))

/-- The body's product over blocks that are rows T·5000 … of `h` and `s` and the whole of `w`, at the block's
    entry `y`, is `scaledProduct` at the array's entry `i` that `y` sits at. -/
theorem block_entry (x : Vec Ideal S5000x500 .f32) (s : Vec Ideal S5000x1 .f32) (w : Vec Ideal S500x7 .f32)
    (h : FVec Ideal S100000x500 .f32) (W : FVec Ideal S500x7 .f32) (sc : FVec Ideal S100000x1 .f32) (T : ℕ)
    (hx : ∀ (p : Fin 5000) (k : Fin 500) (r : Fin 100000), r.val = T * 5000 + p.val → x (ix2 p k) = h (ix2 r k))
    (hs : ∀ (p : Fin 5000) (r : Fin 100000), r.val = T * 5000 + p.val → s (ix2 p (0 : Fin 1)) = sc (ix2 r (0 : Fin 1)))
    (hw : ∀ (k : Fin 500) (q : Fin 7), w (ix2 k q) = W (ix2 k q))
    (y : S5000x7.Idx) (i : S100000x7.Idx) (hi0 : (i 0).val = T * 5000 + (y 0).val) (hi1 : (i 1).val = (y 1).val) :
    k0_pay1 x s w y = scaledProduct h W sc i := by
  obtain ⟨p, q, rfl⟩ : ∃ (p : Fin 5000) (q : Fin 7), y = ix2 p q := ⟨y 0, y 1, eq_ix2 y⟩
  rw [Blocks.scaledProduct_apply]
  unfold scaledProduct
  refine Finset.sum_congr rfl fun k _ => ?_
  rw [hx p k ⟨(i 0).val, idx2_lt0 i⟩ hi0, hs p ⟨(i 0).val, idx2_lt0 i⟩ hi0, hw k q,
    show (⟨(i 1).val, idx2_lt1 i⟩ : Fin 7) = q from Fin.ext hi1]

section Region

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature block, the column block and the output block are block t along
    the rows; the weight matrix is its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t is rows 5000·t … of the feature array. -/
theorem feature_block (c : Dev nD) (t : Fin cfg0.N) (p : Fin 5000) (k : Fin 500) (r : Fin 100000) (hr : r.val = t.val * 5000 + p.val) :
    (iblk0 V c 0 t : Vec Ideal S5000x500 .f32) (ix2 p k) = (V c main_arg0 : FVec Ideal S100000x500 .f32) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t 0 * 5000 + 1 * p.val = r.val; rw [e0, hr]; omega
  | ⟨1, _⟩ => show win0_0.index t 1 * 500 + 1 * k.val = k.val; rw [e1]; omega

/-- The column block at point t is rows 5000·t … of the scaling column. -/
theorem column_block (c : Dev nD) (t : Fin cfg0.N) (p : Fin 5000) (r : Fin 100000) (hr : r.val = t.val * 5000 + p.val) :
    (iblk0 V c 2 t : Vec Ideal S5000x1 .f32) (ix2 p (0 : Fin 1)) = (V c main_v13 : FVec Ideal S100000x1 .f32) (ix2 r (0 : Fin 1)) := by
  obtain ⟨-, -, -, -, e4, e5, -⟩ := idx_facts t
  unfold iblk0
  rw [View.read_apply]
  show V c main_v13 _ = V c main_v13 _
  refine congrArg (V c main_v13) (funext fun a => Fin.ext ?_)
  match a with
  | ⟨0, _⟩ => show win0_2.index t 0 * 5000 + 1 * p.val = r.val; rw [e4, hr]; omega
  | ⟨1, _⟩ => show win0_2.index t 1 * 1 + 1 * 0 = 0; rw [e5]

/-- The weight block at every point is the weight array. -/
theorem weight_block (c : Dev nD) (t : Fin cfg0.N) (k : Fin 500) (q : Fin 7) :
    (iblk0 V c 1 t : Vec Ideal S500x7 .f32) (ix2 k q) = (V c main_arg1 : FVec Ideal S500x7 .f32) (ix2 k q) := by
  obtain ⟨-, -, e2, e3, -⟩ := idx_facts t
  unfold iblk0
  rw [View.read_apply]
  show V c main_arg1 _ = V c main_arg1 _
  refine congrArg (V c main_arg1) (funext fun a => Fin.ext ?_)
  match a with
  | ⟨0, _⟩ => show win0_1.index t 0 * 500 + 1 * k.val = k.val; rw [e2]; omega
  | ⟨1, _⟩ => show win0_1.index t 1 * 7 + 1 * q.val = q.val; rw [e3]; omega

/-- What point t writes back is block t of `scaledProduct` of the three arrays as the region finds them. -/
theorem flushed_eq (c : Dev nD) (t : Fin cfg0.N) :
    (dat0 V c).flushed 3 t = ((cfg0.win 3).blk t).view.read (Elt Ideal)
      (scaledProduct (V c main_arg0) (V c main_arg1) (V c main_v13)) := by
  show (cfg0.win 3).cut (grid0.coords t) ((dat0 V c).after 3 t) = _
  rw [after0_3]
  unfold out0_3
  rw [View.canon_unit_zero hz]
  simp only [View.ld_unit_zero (S := S5000x500) hz, View.ld_unit_zero (S := S5000x1) hz, View.ld_unit_zero (S := S500x7) hz]
  obtain ⟨-, -, -, -, -, -, e6, e7⟩ := idx_facts t
  funext j
  show k0_pay1 (iblk0 V c 0 t) (iblk0 V c 2 t) (iblk0 V c 1 t) j
    = scaledProduct (V c main_arg0) (V c main_arg1) (V c main_v13) (((cfg0.win 3).blk t).view.emb j)
  refine block_entry _ _ _ _ _ _ t.val (fun p k r hr => feature_block V c t p k r hr) (fun p r hr => column_block V c t p r hr)
    (fun k q => weight_block V c t k q) j _ ?_ ?_
  · show win0_3.index t 0 * 5000 + 1 * (j 0).val = t.val * 5000 + (j 0).val; rw [e6]; omega
  · show win0_3.index t 1 * 7 + 1 * (j 1).val = (j 1).val; rw [e7]; omega

/-- An index of the output array is in point t's block iff each coordinate is in the block's range on its axis. -/
theorem mem_blk (t : Fin cfg0.N) (i : S100000x7.Idx) :
    i ∈ ((cfg0.win 3).blk t).view.set ↔ ∀ a : Fin 2, win0_3.index t a * S5000x7.size a ≤ (i a).val
      ∧ (i a).val < win0_3.index t a * S5000x7.size a + S5000x7.size a := by
  show i ∈ ((View.whole main_v14).slice (win0_3.rect t)).set ↔ _
  rw [View.set_slice_whole, Rect.mem_set_unit]
  exact Iff.rfl

/-- Row r of the output is in the block of point r / 5000. -/
theorem cover (i : S100000x7.Idx) : ∃ t : Fin cfg0.N, (cfg0.win 3).flush t = true ∧ i ∈ ((cfg0.win 3).blk t).view.set := by
  have hi0 : (i 0).val < 100000 := idx2_lt0 i
  have hi1 : (i 1).val < 7 := idx2_lt1 i
  have hN : cfg0.N = 20 := N_0
  have ht : (i 0).val / 5000 < cfg0.N := by rw [hN]; omega
  refine ⟨⟨(i 0).val / 5000, ht⟩, flush0_3 _, ?_⟩
  rw [mem_blk]
  obtain ⟨-, -, -, -, -, -, e6, e7⟩ := idx_facts ⟨(i 0).val / 5000, ht⟩
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ 1 * 7 ≤ (i 1).val ∧ (i 1).val < win0_3.index ⟨(i 0).val / 5000, ht⟩ 1 * 7 + 7
    rw [e7]; omega

/-- The output array after the region: `scaledProduct` of the feature array, the weight array and the scaling column
    as the region finds them. -/
theorem final (c : Dev nD) :
    (dat0 V c).arrAt 3 cfg0.N = scaledProduct (V c main_arg0) (V c main_arg1) (V c main_v13) :=
  (dat0 V c).arrAt_eq_of_cover 3 _ (fun t _ => flushed_eq V c t) cover

end Region

end Cert.KernelIdeal.Region0

end
-- ==== Proof.Region1Array.lean ====
/-
  The second tiled region, read as one array.

  The region runs its body at 20 grid points.  At point t the body sees rows 5000·t … 5000·t + 4999 of the aggregated
  matrix and of the scaling column, and the whole 1 × 7 bias row, and writes rows 5000·t … 5000·t + 4999 of the
  output.  So what point t writes back is block t of ONE function of the three arrays as the region finds them,

      scaleBias a s b (r, e) = a[r, e] · s[r, 0] + b[0, e],

  and since the 20 blocks tile the 100000 rows, the output array ends holding that function.  Everything here is
  stated for arbitrary contents `V` of the device's buffers at the region's entry.
-/
import proofs.«173169_j90331752169729_2_alg».proof.Proof.Gen.KernelIdeal.Frame
import proofs.«173169_j90331752169729_2_alg».proof.Proof.BlockValues
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

/-- Every row of `a` scaled by the row's entry of the column `s`, plus the row `b`. -/
def scaleBias (a : FVec Ideal S100000x7 .f32) (s : FVec Ideal S100000x1 .f32) (b : FVec Ideal S1x7 .f32) :
    FVec Ideal S100000x7 .f32 := fun i =>
  a (ix2 (⟨(i 0).val, idx2_lt0 i⟩ : Fin 100000) (⟨(i 1).val, idx2_lt1 i⟩ : Fin 7))
      * s (ix2 (⟨(i 0).val, idx2_lt0 i⟩ : Fin 100000) (0 : Fin 1))
    + b (ix2 (0 : Fin 1) (⟨(i 1).val, idx2_lt1 i⟩ : Fin 7))

/-- The body's result over blocks that are rows T·5000 … of `a` and `s` and the whole of `b`, at the block's entry
    `y`, is `scaleBias` at the array's entry `i` that `y` sits at. -/
theorem block_entry (x : Vec Ideal S5000x7 .f32) (s : Vec Ideal S5000x1 .f32) (bb : Vec Ideal S1x7 .f32)
    (a : FVec Ideal S100000x7 .f32) (sc : FVec Ideal S100000x1 .f32) (b : FVec Ideal S1x7 .f32) (T : ℕ)
    (hx : ∀ (p : Fin 5000) (q : Fin 7) (r : Fin 100000), r.val = T * 5000 + p.val → x (ix2 p q) = a (ix2 r q))
    (hs : ∀ (p : Fin 5000) (r : Fin 100000), r.val = T * 5000 + p.val → s (ix2 p (0 : Fin 1)) = sc (ix2 r (0 : Fin 1)))
    (hb : ∀ (q : Fin 7), bb (ix2 (0 : Fin 1) q) = b (ix2 (0 : Fin 1) q))
    (y : S5000x7.Idx) (i : S100000x7.Idx) (hi0 : (i 0).val = T * 5000 + (y 0).val) (hi1 : (i 1).val = (y 1).val) :
    k1_pay1 x s bb y = scaleBias a sc b i := by
  obtain ⟨p, q, rfl⟩ : ∃ (p : Fin 5000) (q : Fin 7), y = ix2 p q := ⟨y 0, y 1, eq_ix2 y⟩
  rw [Blocks.scaleBias_apply]
  unfold scaleBias
  rw [hx p q ⟨(i 0).val, idx2_lt0 i⟩ hi0, hs p ⟨(i 0).val, idx2_lt0 i⟩ hi0, hb q,
    show (⟨(i 1).val, idx2_lt1 i⟩ : Fin 7) = q from Fin.ext hi1]

section Region

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregated block, the column block and the output block are block t
    along the rows; the bias row is its one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregated block at point t is rows 5000·t … of the aggregated array. -/
theorem aggregated_block (c : Dev nD) (t : Fin cfg1.N) (p : Fin 5000) (q : Fin 7) (r : Fin 100000) (hr : r.val = t.val * 5000 + p.val) :
    (iblk1 V c 0 t : Vec Ideal S5000x7 .f32) (ix2 p q) = (V c main_v24 : FVec Ideal S100000x7 .f32) (ix2 r q) := by
  obtain ⟨e0, e1, -⟩ := idx_facts t
  unfold iblk1
  rw [View.read_apply]
  show V c main_v24 _ = V c main_v24 _
  refine congrArg (V c main_v24) (funext fun a => Fin.ext ?_)
  match a with
  | ⟨0, _⟩ => show win1_0.index t 0 * 5000 + 1 * p.val = r.val; rw [e0, hr]; omega
  | ⟨1, _⟩ => show win1_0.index t 1 * 7 + 1 * q.val = q.val; rw [e1]; omega

/-- The column block at point t is rows 5000·t … of the scaling column. -/
theorem column_block (c : Dev nD) (t : Fin cfg1.N) (p : Fin 5000) (r : Fin 100000) (hr : r.val = t.val * 5000 + p.val) :
    (iblk1 V c 1 t : Vec Ideal S5000x1 .f32) (ix2 p (0 : Fin 1)) = (V c main_v25 : FVec Ideal S100000x1 .f32) (ix2 r (0 : Fin 1)) := by
  obtain ⟨-, -, e2, e3, -⟩ := idx_facts t
  unfold iblk1
  rw [View.read_apply]
  show V c main_v25 _ = V c main_v25 _
  refine congrArg (V c main_v25) (funext fun a => Fin.ext ?_)
  match a with
  | ⟨0, _⟩ => show win1_1.index t 0 * 5000 + 1 * p.val = r.val; rw [e2, hr]; omega
  | ⟨1, _⟩ => show win1_1.index t 1 * 1 + 1 * 0 = 0; rw [e3]

/-- The bias block at every point is the bias row. -/
theorem bias_block (c : Dev nD) (t : Fin cfg1.N) (q : Fin 7) :
    (iblk1 V c 2 t : Vec Ideal S1x7 .f32) (ix2 (0 : Fin 1) q) = (V c main_v26 : FVec Ideal S1x7 .f32) (ix2 (0 : Fin 1) q) := by
  obtain ⟨-, -, -, -, e4, e5, -⟩ := idx_facts t
  unfold iblk1
  rw [View.read_apply]
  show V c main_v26 _ = V c main_v26 _
  refine congrArg (V c main_v26) (funext fun a => Fin.ext ?_)
  match a with
  | ⟨0, _⟩ => show win1_2.index t 0 * 1 + 1 * 0 = 0; rw [e4]
  | ⟨1, _⟩ => show win1_2.index t 1 * 7 + 1 * q.val = q.val; rw [e5]; omega

/-- What point t writes back is block t of `scaleBias` of the three arrays as the region finds them. -/
theorem flushed_eq (c : Dev nD) (t : Fin cfg1.N) :
    (dat1 V c).flushed 3 t = ((cfg1.win 3).blk t).view.read (Elt Ideal)
      (scaleBias (V c main_v24) (V c main_v25) (V c main_v26)) := by
  show (cfg1.win 3).cut (grid1.coords t) ((dat1 V c).after 3 t) = _
  rw [after1_3]
  unfold out1_3
  rw [View.canon_unit_zero hz]
  simp only [View.ld_unit_zero (S := S5000x7) hz, View.ld_unit_zero (S := S5000x1) hz, View.ld_unit_zero (S := S1x7) hz]
  obtain ⟨-, -, -, -, -, -, e6, e7⟩ := idx_facts t
  funext j
  show k1_pay1 (iblk1 V c 0 t) (iblk1 V c 1 t) (iblk1 V c 2 t) j
    = scaleBias (V c main_v24) (V c main_v25) (V c main_v26) (((cfg1.win 3).blk t).view.emb j)
  refine block_entry _ _ _ _ _ _ t.val (fun p q r hr => aggregated_block V c t p q r hr) (fun p r hr => column_block V c t p r hr)
    (fun q => bias_block V c t q) j _ ?_ ?_
  · show win1_3.index t 0 * 5000 + 1 * (j 0).val = t.val * 5000 + (j 0).val; rw [e6]; omega
  · show win1_3.index t 1 * 7 + 1 * (j 1).val = (j 1).val; rw [e7]; omega

/-- An index of the output array is in point t's block iff each coordinate is in the block's range on its axis. -/
theorem mem_blk (t : Fin cfg1.N) (i : S100000x7.Idx) :
    i ∈ ((cfg1.win 3).blk t).view.set ↔ ∀ a : Fin 2, win1_3.index t a * S5000x7.size a ≤ (i a).val
      ∧ (i a).val < win1_3.index t a * S5000x7.size a + S5000x7.size a := by
  show i ∈ ((View.whole main_v27).slice (win1_3.rect t)).set ↔ _
  rw [View.set_slice_whole, Rect.mem_set_unit]
  exact Iff.rfl

/-- Row r of the output is in the block of point r / 5000. -/
theorem cover (i : S100000x7.Idx) : ∃ t : Fin cfg1.N, (cfg1.win 3).flush t = true ∧ i ∈ ((cfg1.win 3).blk t).view.set := by
  have hi0 : (i 0).val < 100000 := idx2_lt0 i
  have hi1 : (i 1).val < 7 := idx2_lt1 i
  have hN : cfg1.N = 20 := N_1
  have ht : (i 0).val / 5000 < cfg1.N := by rw [hN]; omega
  refine ⟨⟨(i 0).val / 5000, ht⟩, flush1_3 _, ?_⟩
  rw [mem_blk]
  obtain ⟨-, -, -, -, -, -, e6, e7⟩ := idx_facts ⟨(i 0).val / 5000, ht⟩
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ 1 * 7 ≤ (i 1).val ∧ (i 1).val < win1_3.index ⟨(i 0).val / 5000, ht⟩ 1 * 7 + 7
    rw [e7]; omega

/-- The output array after the region: `scaleBias` of the aggregated array, the scaling column and the bias row as
    the region finds them. -/
theorem final (c : Dev nD) :
    (dat1 V c).arrAt 3 cfg1.N = scaleBias (V c main_v24) (V c main_v25) (V c main_v26) :=
  (dat1 V c).arrAt_eq_of_cover 3 _ (fun t _ => flushed_eq V c t) cover

end Region

end Cert.KernelIdeal.Region1

end
-- ==== Proof.KernelValue.lean ====
/-
  The idealized kernel program's result as one function of its five arguments.

  Composing the stages: with s_out = degreeScale src and s_in = degreeScale dst (each node's clipped degree to the
  power -1/2),

      feat   = scaledProduct h w (s_out as a column)        feat[r, e] = Σ_k (h[r, k] · s_out[r]) · w[k, e]
      agg    = aggregate feat src dst                        agg[v, ·]  = Σ_{edges into v} feat[src, ·]
      result = scaleBias agg (s_in as a column) (b as a row)  result[v, e] = agg[v, e] · s_in[v] + b[e].

  The first region's output is `feat` of the arrays at its entry, the host stretch after it turns that into `agg`, and
  the second region's output is `result`; the buffers each stage reads hold what the earlier stages left.
-/
import proofs.«173169_j90331752169729_2_alg».proof.Proof.HostStages
import proofs.«173169_j90331752169729_2_alg».proof.Proof.Region0Array
import proofs.«173169_j90331752169729_2_alg».proof.Proof.Region1Array

set_option maxRecDepth 16384

noncomputable section

namespace Cert.KernelIdeal.Whole

open Cert.KernelIdeal Cert.KernelIdeal.Gen Idealize.ShloMosaic Idealize.ShloMosaic.TcCoe Idealize.SL.Sem

/-- The program's result array as a function of the features, the weights, the bias, the sources and the
    destinations. -/
def kernelValue (x0 : FVec Ideal S100000x500 .f32) (x1 : FVec Ideal S500x7 .f32) (x2 : FVec Ideal S7 .f32)
    (x3 x4 : (⟨S3300000, .i32⟩ : BufTy).Contents (Elt Ideal)) : FVec Ideal S100000x7 .f32 :=
  Region1.scaleBias
    (Stages.aggregate (F := Ideal)
      (Region0.scaledProduct x0 x1 (shapeCast S100000x1 (Stages.degreeScale (F := Ideal) x3) shapeCasts_S100000_S100000x1)) x3 x4)
    (shapeCast S100000x1 (Stages.degreeScale (F := Ideal) x4) shapeCasts_S100000_S100000x1)
    (shapeCast S1x7 x2 shapeCasts_S7_S1x7)

variable (m : (ℓ : Loc nD τ sig) → Buf (Elt Ideal) ℓ) (ρ : Dev nD → PrngReg)

/-- The first region's output: the row-scaled product of the launched features and weights with the out-degree
    factors. -/
theorem features_value (c : Dev nD) : W6 m ρ c (Proc.devRef .tc main_v14)
    = Region0.scaledProduct (m ((c : Thread nD τ).loc main_arg0)) (m ((c : Thread nD τ).loc main_arg1))
        (shapeCast S100000x1 (Stages.degreeScale (F := Ideal) (m ((c : Thread nD τ).loc main_arg3))) shapeCasts_S100000_S100000x1) := by
  refine (Stages.exit0_output m ρ c).trans ((Region0.final (V5 m ρ) c).trans ?_)
  show Region0.scaledProduct (W5 m ρ c (Proc.devRef .tc main_arg0)) (W5 m ρ c (Proc.devRef .tc main_arg1))
    (W5 m ρ c (Proc.devRef .tc main_v13)) = _
  rw [Stages.entry0_features, Stages.entry0_weights, Stages.entry0_column]

/-- The last stage of the fold at the result array is `kernelValue` of the launched arguments. -/
theorem result_value (c : Dev nD) : W8 m ρ c (Proc.devRef .tc main_v27)
    = kernelValue (m ((c : Thread nD τ).loc main_arg0)) (m ((c : Thread nD τ).loc main_arg1)) (m ((c : Thread nD τ).loc main_arg2))
        (m ((c : Thread nD τ).loc main_arg3)) (m ((c : Thread nD τ).loc main_arg4)) := by
  refine (Stages.exit1_output m ρ c).trans ((Region1.final (V7 m ρ) c).trans ?_)
  show Region1.scaleBias (W7 m ρ c (Proc.devRef .tc main_v24)) (W7 m ρ c (Proc.devRef .tc main_v25))
    (W7 m ρ c (Proc.devRef .tc main_v26)) = _
  rw [Stages.entry1_aggregated, Stages.entry1_column, Stages.entry1_bias, features_value, Stages.exit0_sources,
    Stages.exit0_destinations, Stages.exit0_inScale, Stages.exit0_bias]
  rfl

end Cert.KernelIdeal.Whole

end
-- ==== Proof.Bridge.lean ====
/-
  The kernel program's result function is the reference's.

  The reference computes the same quantities stage by stage with plain array operations: the degree factors of the
  sources and of the destinations, the features scaled row by row, ONE 100000 × 500 by 500 × 7 product, the same gather
  and scatter-add, and the scaling by the in-degree factors plus the bias with both operands spread to the full shape.
  Entry by entry the two agree: the kernel's row-scaled product Σ_k (h[r, k] · s[r]) · w[k, e] is the reference's product
  of the scaled features read at (r, e); the gather and the scatter-add are the same operations applied to equal
  matrices; and a[r, e] · s[r] + b[e] is the reference's last two operations read at (r, e).  No law of arithmetic is
  needed beyond reading each operation at an entry, so nothing is asked of the inputs.
-/
import proofs.«173169_j90331752169729_2_alg».proof.Proof.Gen.ReferenceIdeal.Read
import proofs.«173169_j90331752169729_2_alg».proof.Proof.KernelValue
import proofs.«173169_j90331752169729_2_alg».proof.Proof.LibKeepdims
import Idealize.ShloMosaic.Lib.ValueLayout

set_option maxRecDepth 16384

noncomputable section

open scoped BigOperators

namespace Cert.KernelIdeal.Whole

open Cert.KernelIdeal Cert.KernelIdeal.Gen Idealize.ShloMosaic Idealize.ShloMosaic.ValueIdx

/-- The degree factors are the reference's: the same operations on the same index array (for the sources). -/
theorem degreeScale_sources (x3 : (⟨S3300000, .i32⟩ : BufTy).Contents (Elt Ideal)) :
    Stages.degreeScale (F := Ideal) x3 = Cert.ReferenceIdeal.Read.val_main_v9 (F := Ideal) x3 := rfl

/-- The degree factors are the reference's (for the destinations). -/
theorem degreeScale_destinations (x4 : (⟨S3300000, .i32⟩ : BufTy).Contents (Elt Ideal)) :
    Stages.degreeScale (F := Ideal) x4 = Cert.ReferenceIdeal.Read.val_main_v12 (F := Ideal) x4 := rfl

/-- The row-scaled product is the reference's product of the scaled features. -/
theorem scaledProduct_eq (x0 : FVec Ideal S100000x500 .f32) (x1 : FVec Ideal S500x7 .f32)
    (x3 : (⟨S3300000, .i32⟩ : BufTy).Contents (Elt Ideal)) :
    Region0.scaledProduct x0 x1 (shapeCast S100000x1 (Stages.degreeScale (F := Ideal) x3) shapeCasts_S100000_S100000x1)
      = Cert.ReferenceIdeal.Read.val_main_v16 (F := Ideal) x0 x1 x3 := by
  funext i
  rw [Cert.ReferenceIdeal.Read.val_main_v16_apply]
  unfold Region0.scaledProduct
  refine Finset.sum_congr rfl fun k _ => ?_
  rw [Cert.ReferenceIdeal.Read.val_main_v15_apply, Cert.ReferenceIdeal.Read.val_main_v14_apply,
    Cert.ReferenceIdeal.Read.val_main_v13_apply, Cert.LibKeepdims.shapeCast_a_a1_apply, degreeScale_sources]
  have hn : Cert.ReferenceIdeal.Read.idx_main_v13 (Cert.ReferenceIdeal.Read.idx_main_v14 (Cert.ReferenceIdeal.Read.lidx_main_v16 i k))
      = ix1 (⟨(i 0).val, idx2_lt0 i⟩ : Fin 100000) := funext fun a => Fin.ext (by match a with | ⟨0, _⟩ => rfl)
  have hl : Cert.ReferenceIdeal.Read.lidx_main_v16 i k = ix2 (⟨(i 0).val, idx2_lt0 i⟩ : Fin 100000) k :=
    funext fun a => Fin.ext (by match a with | ⟨0, _⟩ => rfl | ⟨1, _⟩ => rfl)
  have hr : Cert.ReferenceIdeal.Read.ridx_main_v16 i k = ix2 k (⟨(i 1).val, idx2_lt1 i⟩ : Fin 7) :=
    funext fun a => Fin.ext (by match a with | ⟨0, _⟩ => rfl | ⟨1, _⟩ => rfl)
  rw [hn, hl, hr]
  rfl

/-- The gather and the scatter-add are the reference's, applied to the same matrix. -/
theorem aggregate_eq (x0 : FVec Ideal S100000x500 .f32) (x1 : FVec Ideal S500x7 .f32)
    (x3 x4 : (⟨S3300000, .i32⟩ : BufTy).Contents (Elt Ideal)) :
    Stages.aggregate (F := Ideal) (Cert.ReferenceIdeal.Read.val_main_v16 (F := Ideal) x0 x1 x3) x3 x4
      = Cert.ReferenceIdeal.Read.val_main_v26 (F := Ideal) x0 x1 x3 x4 := rfl

/-- The kernel program's result function is the reference's last stage. -/
theorem kernelValue_eq (x0 : FVec Ideal S100000x500 .f32) (x1 : FVec Ideal S500x7 .f32) (x2 : FVec Ideal S7 .f32)
    (x3 x4 : (⟨S3300000, .i32⟩ : BufTy).Contents (Elt Ideal)) :
    kernelValue x0 x1 x2 x3 x4 = Cert.ReferenceIdeal.Read.val_main_v32 (F := Ideal) x0 x1 x2 x3 x4 := by
  unfold kernelValue
  rw [scaledProduct_eq, aggregate_eq]
  funext i
  rw [Cert.ReferenceIdeal.Read.val_main_v32_apply, Cert.ReferenceIdeal.Read.val_main_v29_apply,
    Cert.ReferenceIdeal.Read.val_main_v28_apply, Cert.ReferenceIdeal.Read.val_main_v27_apply,
    Cert.ReferenceIdeal.Read.val_main_v31_apply, Cert.ReferenceIdeal.Read.val_main_v30_apply]
  unfold Region1.scaleBias
  rw [Cert.LibKeepdims.shapeCast_a_a1_apply, shapeCast_a_1a_apply, degreeScale_destinations]
  have hi : ix2 (⟨(i 0).val, idx2_lt0 i⟩ : Fin 100000) (⟨(i 1).val, idx2_lt1 i⟩ : Fin 7) = i :=
    funext fun a => Fin.ext (by match a with | ⟨0, _⟩ => rfl | ⟨1, _⟩ => rfl)
  have hn : Cert.ReferenceIdeal.Read.idx_main_v27 (Cert.ReferenceIdeal.Read.idx_main_v28 i)
      = ix1 (⟨(i 0).val, idx2_lt0 i⟩ : Fin 100000) := funext fun a => Fin.ext (by match a with | ⟨0, _⟩ => rfl)
  have hb : Cert.ReferenceIdeal.Read.idx_main_v30 (Cert.ReferenceIdeal.Read.idx_main_v31 i)
      = ix1 (⟨(i 1).val, idx2_lt1 i⟩ : Fin 7) := funext fun a => Fin.ext (by match a with | ⟨0, _⟩ => rfl)
  rw [hi, hn, hb]
  rfl

end Cert.KernelIdeal.Whole

end
-- ==== Proof.lean ====
/-
  Equivalence, on the extended reals, of a graph convolution written as two tiled kernels around a gather and a
  scatter-add, and its plain reference.

  Both programs take node features h (100000 × 500), weights w (500 × 7), a bias b (7) and the two endpoint arrays src,
  dst of 3300000 edges, and compute

      result[v, e] = ( Σ_{edges (u → v)} Σ_k (h[u, k] · s_out[u]) · w[k, e] ) · s_in[v] + b[e],

  where s_out and s_in are the nodes' out- and in-degrees (histograms of src and of dst), clipped below at 1, to the
  power -1/2.  The kernel program computes the inner product in a first region tiled over 20 blocks of 5000 rows (the
  rounding of the operands on the way into the product is the identity on the extended reals), gathers and
  scatter-adds with the host's operations, and applies the last scaling and the bias in a second region tiled the
  same way.  The reference does all of it with whole-array operations.

  The modules beside this one: the program's run with its result array named (NamedRun); what each body stores, read
  at an entry (BlockValues); each region's output as one array (Region0Array, Region1Array); the host stages between
  them (HostStages); their composition (KernelValue); and its agreement with the reference's stages, entry by entry
  (Bridge).  The three frames are the generated ones (the reference's is its generated run with the result dropped);
  the idealization rewrote nothing, so its conjunct is trivial; no finiteness of the inputs is used.
-/
import proofs.«173169_j90331752169729_2_alg».proof.Defs
import proofs.«173169_j90331752169729_2_alg».proof.Proof.Gen.Kernel
import proofs.«173169_j90331752169729_2_alg».proof.Proof.Gen.Kernel.Skeleton
import proofs.«173169_j90331752169729_2_alg».proof.Proof.Gen.Kernel.Launch
import proofs.«173169_j90331752169729_2_alg».proof.Proof.Gen.Kernel.Points
import proofs.«173169_j90331752169729_2_alg».proof.Proof.Gen.Kernel.Frame
import proofs.«173169_j90331752169729_2_alg».proof.Proof.Gen.KernelIdeal
import proofs.«173169_j90331752169729_2_alg».proof.Proof.Gen.KernelIdeal.Skeleton
import proofs.«173169_j90331752169729_2_alg».proof.Proof.Gen.KernelIdeal.Launch
import proofs.«173169_j90331752169729_2_alg».proof.Proof.Gen.KernelIdeal.Points
import proofs.«173169_j90331752169729_2_alg».proof.Proof.Gen.KernelIdeal.Frame
import proofs.«173169_j90331752169729_2_alg».proof.Proof.Gen.ReferenceIdeal
import proofs.«173169_j90331752169729_2_alg».proof.Proof.Gen.Pre_finite_inputs
import proofs.«173169_j90331752169729_2_alg».proof.Proof.Gen.ReferenceIdeal.Run
import proofs.«173169_j90331752169729_2_alg».proof.Proof.Gen.ReferenceIdeal.Read
import proofs.«173169_j90331752169729_2_alg».proof.Proof.NamedRun
import proofs.«173169_j90331752169729_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the same result array: the kernel program's
    at its result function of the arguments, the reference's at its last stage, which is that function. -/
theorem algebraic : Cert.algebraic_KernelIdeal_ReferenceIdeal := by
  intro m ρ m' ρ' _ hagree
  refine ⟨fun c => Cert.KernelIdeal.Whole.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.result_value m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, (hagree c).1, (hagree c).2.1, (hagree c).2.2.1, (hagree c).2.2.2.1,
      (hagree c).2.2.2.2]
    exact (Cert.KernelIdeal.Whole.kernelValue_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
